-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x32 : Shape := ⟨2, ![2048, 32]⟩
abbrev S1x1 : Shape := ⟨2, ![1, 1]⟩
abbrev S1 : Shape := ⟨1, ![1]⟩
abbrev S1x2048x2048 : Shape := ⟨3, ![1, 2048, 2048]⟩
abbrev S256x1 : Shape := ⟨2, ![256, 1]⟩
abbrev S256 : Shape := ⟨1, ![256]⟩
abbrev S1x256 : Shape := ⟨2, ![1, 256]⟩
abbrev S_ : Shape := ⟨0, ![]⟩

class Facts : Prop where
  bcast_S_S2048x32 : S_.BroadcastsInDim S2048x32 (![] : Fin 0 → Fin S2048x32.rank)
  reducesTo_S2048x32_S_d0_1 : S2048x32.ReducesTo [0, 1] S_
  h_S_ : 0 < S_.numel
  bcast_S_S1x1 : S_.BroadcastsInDim S1x1 (![] : Fin 0 → Fin S1x1.rank)
  reducesTo_S1x1_S_d0_1 : S1x1.ReducesTo [0, 1] S_
  bcast_S_S1 : S_.BroadcastsInDim S1 (![] : Fin 0 → Fin S1.rank)
  reducesTo_S1_S_d0 : S1.ReducesTo [0] S_
  bcast_S_S1x2048x2048 : S_.BroadcastsInDim S1x2048x2048 (![] : Fin 0 → Fin S1x2048x2048.rank)
  reducesTo_S1x2048x2048_S_d0_1_2 : S1x2048x2048.ReducesTo [0, 1, 2] S_
  bcast_S_S256x1 : S_.BroadcastsInDim S256x1 (![] : Fin 0 → Fin S256x1.rank)
  reducesTo_S256x1_S_d0_1 : S256x1.ReducesTo [0, 1] S_
  bcast_S_S256 : S_.BroadcastsInDim S256 (![] : Fin 0 → Fin S256.rank)
  reducesTo_S256_S_d0 : S256.ReducesTo [0] S_
  bcast_S_S1x256 : S_.BroadcastsInDim S1x256 (![] : Fin 0 → Fin S1x256.rank)
  reducesTo_S1x256_S_d0_1 : S1x256.ReducesTo [0, 1] S_

variable [Facts]

def fn_part3 {F : FTy → Type} [FloatOps F] (main_arg11 : FVec F S1 .f32) (main_v48 : IVec S_ 1) (main_v49 : FVec F S1x256 .f32) (main_v50 : FVec F S1x256 .f32) : IVec S_ 1 :=
  let main_v51 : IVec S1x256 1 := cmpf .olt main_v49 main_v50
  let main_c_19 : IVec S_ 1 := constantI S_ 1 1#1
  let main_v52 : IVec S_ 1 := (fun x v => Host.reduce IntOp.andi x v reducesTo_S1x256_S_d0_1 h_S_) main_v51 main_c_19
  let main_v53 : IVec S_ 1 := andi main_v48 main_v52
  let main_v54 : FVec F S1 .f32 := Host.absf main_arg11
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  main_v58

def fn_part2 {F : FTy → Type} [FloatOps F] (main_arg7 : FVec F S1x2048x2048 .f32) (main_arg8 : FVec F S256x1 .f32) (main_arg9 : FVec F S256 .f32) (main_arg10 : FVec F S1x256 .f32) (main_arg11 : FVec F S1 .f32) (main_v33 : IVec S_ 1) : IVec S_ 1 :=
  let main_v34 : FVec F S1x2048x2048 .f32 := Host.absf main_arg7
  let main_cst_12 : FVec F S_ .f32 := constant S_ .f32 0x7F800000#32
  let main_v35 : FVec F S1x2048x2048 .f32 := broadcastInDim S1x2048x2048 ![] bcast_S_S1x2048x2048 main_cst_12
  let main_v36 : IVec S1x2048x2048 1 := cmpf .olt main_v34 main_v35
  let main_c_13 : IVec S_ 1 := constantI S_ 1 1#1
  let main_v37 : IVec S_ 1 := (fun x v => Host.reduce IntOp.andi x v reducesTo_S1x2048x2048_S_d0_1_2 h_S_) main_v36 main_c_13
  let main_v38 : IVec S_ 1 := andi main_v33 main_v37
  let main_v39 : FVec F S256x1 .f32 := Host.absf main_arg8
  let main_cst_14 : FVec F S_ .f32 := constant S_ .f32 0x7F800000#32
  let main_v40 : FVec F S256x1 .f32 := broadcastInDim S256x1 ![] bcast_S_S256x1 main_cst_14
  let main_v41 : IVec S256x1 1 := cmpf .olt main_v39 main_v40
  let main_c_15 : IVec S_ 1 := constantI S_ 1 1#1
  let main_v42 : IVec S_ 1 := (fun x v => Host.reduce IntOp.andi x v reducesTo_S256x1_S_d0_1 h_S_) main_v41 main_c_15
  let main_v43 : IVec S_ 1 := andi main_v38 main_v42
  let main_v44 : FVec F S256 .f32 := Host.absf main_arg9
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  let main_v49 : FVec F S1x256 .f32 := Host.absf main_arg10
  let main_cst_18 : FVec F S_ .f32 := constant S_ .f32 0x7F800000#32
  let main_v50 : FVec F S1x256 .f32 := broadcastInDim S1x256 ![] bcast_S_S1x256 main_cst_18
  fn_part3 (F := F) main_arg11 main_v48 main_v49 main_v50

def fn_part1 {F : FTy → Type} [FloatOps F] (main_arg4 : FVec F S1 .f32) (main_arg5 : FVec F S1x1 .f32) (main_arg6 : FVec F S1 .f32) (main_arg7 : FVec F S1x2048x2048 .f32) (main_arg8 : FVec F S256x1 .f32) (main_arg9 : FVec F S256 .f32) (main_arg10 : FVec F S1x256 .f32) (main_arg11 : FVec F S1 .f32) (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  let main_v19 : FVec F S1 .f32 := Host.absf main_arg4
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S1x1 .f32 := Host.absf main_arg5
  let main_cst_8 : FVec F S_ .f32 := constant S_ .f32 0x7F800000#32
  let main_v25 : FVec F S1x1 .f32 := broadcastInDim S1x1 ![] bcast_S_S1x1 main_cst_8
  let main_v26 : IVec S1x1 1 := cmpf .olt main_v24 main_v25
  let main_c_9 : IVec S_ 1 := constantI S_ 1 1#1
  let main_v27 : IVec S_ 1 := (fun x v => Host.reduce IntOp.andi x v reducesTo_S1x1_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S2048x32 .f32) (main_arg1 : FVec F S1x1 .f32) (main_arg2 : FVec F S1 .f32) (main_arg3 : FVec F S1x1 .f32) (main_arg4 : FVec F S1 .f32) (main_arg5 : FVec F S1x1 .f32) (main_arg6 : FVec F S1 .f32) (main_arg7 : FVec F S1x2048x2048 .f32) (main_arg8 : FVec F S256x1 .f32) (main_arg9 : FVec F S256 .f32) (main_arg10 : FVec F S1x256 .f32) (main_arg11 : FVec F S1 .f32) : IVec S_ 1 :=
  let main_v0 : FVec F S2048x32 .f32 := Host.absf main_arg0
  let main_cst : FVec F S_ .f32 := constant S_ .f32 0x7F800000#32
  let main_v1 : FVec F S2048x32 .f32 := broadcastInDim S2048x32 ![] bcast_S_S2048x32 main_cst
  let main_v2 : IVec S2048x32 1 := cmpf .olt main_v0 main_v1
  let main_c : IVec S_ 1 := constantI S_ 1 1#1
  let main_v3 : IVec S_ 1 := (fun x v => Host.reduce IntOp.andi x v reducesTo_S2048x32_S_d0_1 h_S_) main_v2 main_c
  let main_v4 : FVec F S1x1 .f32 := Host.absf main_arg1
  let main_cst_0 : FVec F S_ .f32 := constant S_ .f32 0x7F800000#32
  let main_v5 : FVec F S1x1 .f32 := broadcastInDim S1x1 ![] bcast_S_S1x1 main_cst_0
  let main_v6 : IVec S1x1 1 := cmpf .olt main_v4 main_v5
  let main_c_1 : IVec S_ 1 := constantI S_ 1 1#1
  let main_v7 : IVec S_ 1 := (fun x v => Host.reduce IntOp.andi x v reducesTo_S1x1_S_d0_1 h_S_) main_v6 main_c_1
  let main_v8 : IVec S_ 1 := andi main_v3 main_v7
  let main_v9 : FVec F S1 .f32 := Host.absf main_arg2
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_arg4 main_arg5 main_arg6 main_arg7 main_arg8 main_arg9 main_arg10 main_arg11 main_v13 main_v16
-- ==== Kernel.lean ====
abbrev S2048x32 : Shape := ⟨2, ![2048, 32]⟩
abbrev S1x1 : Shape := ⟨2, ![1, 1]⟩
abbrev S1 : Shape := ⟨1, ![1]⟩
abbrev S1x2048x2048 : Shape := ⟨3, ![1, 2048, 2048]⟩
abbrev S256x1 : Shape := ⟨2, ![256, 1]⟩
abbrev S256 : Shape := ⟨1, ![256]⟩
abbrev S1x256 : Shape := ⟨2, ![1, 256]⟩
abbrev S1x1x2048 : Shape := ⟨3, ![1, 1, 2048]⟩
abbrev S2048 : Shape := ⟨1, ![2048]⟩
abbrev S1x2048 : Shape := ⟨2, ![1, 2048]⟩
abbrev S1x32 : Shape := ⟨2, ![1, 32]⟩
abbrev S32 : Shape := ⟨1, ![32]⟩
abbrev S32x2048 : Shape := ⟨2, ![32, 2048]⟩
abbrev S32x1 : Shape := ⟨2, ![32, 1]⟩
abbrev S32x256 : Shape := ⟨2, ![32, 256]⟩

abbrev nBuf : Space → Nat
  | .hbm => 23
  | .vmem => 13
  | .smem => 0
  | _ => 0

abbrev bufTy : (tb : Table) → Fin (tcTables nBuf tb) → BufTy
  | .hbm, ⟨0, _⟩ => ⟨S2048x32, .f32⟩
  | .hbm, ⟨1, _⟩ => ⟨S1x1, .f32⟩
  | .hbm, ⟨2, _⟩ => ⟨S1, .f32⟩
  | .hbm, ⟨3, _⟩ => ⟨S1x1, .f32⟩
  | .hbm, ⟨4, _⟩ => ⟨S1, .f32⟩
  | .hbm, ⟨5, _⟩ => ⟨S1x1, .f32⟩
  | .hbm, ⟨6, _⟩ => ⟨S1, .f32⟩
  | .hbm, ⟨7, _⟩ => ⟨S1x2048x2048, .f32⟩
  | .hbm, ⟨8, _⟩ => ⟨S256x1, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S1x1x2048, .f32⟩
  | .hbm, ⟨13, _⟩ => ⟨S2048, .f32⟩
  | .hbm, ⟨14, _⟩ => ⟨S1x2048, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x256, .f32⟩
  | .hbm, ⟨19, _⟩ => ⟨S1x256, .f32⟩
  | .hbm, ⟨20, _⟩ => ⟨S1x1, .f32⟩
  | .hbm, ⟨21, _⟩ => ⟨S1x32, .f32⟩
  | .hbm, ⟨22, _⟩ => ⟨S32, .f32⟩
  | .local _ .vmem, ⟨0, _⟩ => ⟨S2048x32, .f32⟩
  | .local _ .vmem, ⟨1, _⟩ => ⟨S1x2048, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S1x1, .f32⟩
  | .local _ .vmem, ⟨6, _⟩ => ⟨S1x1, .f32⟩
  | .local _ .vmem, ⟨7, _⟩ => ⟨S1x1, .f32⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x1, .f32⟩
  | .local _ .vmem, ⟨12, _⟩ => ⟨S1x32, .f32⟩
  | _, _ => ⟨S2048x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_v0 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S2048x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x32 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

class Facts₀ : Prop where
  slices_S1x2048x2048_S1x1x2048_0_0_0 : S1x2048x2048.Slices ![0, 0, 0] S1x1x2048
  shapeCasts_S1x1x2048_S2048 : S1x1x2048.ShapeCasts S2048
  shapeCasts_S2048_S1x2048 : S2048.ShapeCasts S1x2048
  shapeCasts_S1_S1x1 : S1.ShapeCasts S1x1
  shapeCasts_S256x1_S1x256 : S256x1.ShapeCasts S1x256
  shapeCasts_S256_S1x256 : S256.ShapeCasts S1x256
  shapeCasts_S1x32_S32 : S1x32.ShapeCasts S32
  inb_S2048x32_S2048x32_0_0 : ∀ a, (![0, 0] : Fin 2 → Nat) a + S2048x32.size a ≤ S2048x32.size a
  h_S2048x32 : 0 < S2048x32.numel
  transposes_S2048x32_p1_0_S32x2048 : S2048x32.Transposes [1, 0] S32x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S32x2048_o0_0_S32x1 : S32x2048.Slices ![0, 0] S32x1
  broadcasts_S1x1_S32x1 : S1x1.Broadcasts S32x1
  broadcasts_S1x1_S32x2048 : S1x1.Broadcasts S32x2048
  broadcasts_S32x1_S32x2048 : S32x1.Broadcasts S32x2048
  broadcasts_S1x2048_S32x2048 : S1x2048.Broadcasts S32x2048
  reduces_S32x2048_S32 : S32x2048.Reduces [1] S32
  shapeCasts_S32_S32x1 : S32.ShapeCasts S32x1
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S32x1_S32x256 : S32x1.Broadcasts S32x256
  broadcasts_S1x256_S32x256 : S1x256.Broadcasts S32x256
  reduces_S32x256_S32 : S32x256.Reduces [1] S32
  transposes_S32x1_p1_0_S1x32 : S32x1.Transposes [1, 0] S1x32
  inb_S1x32_S1x32_0_0 : ∀ a, (![0, 0] : Fin 2 → Nat) a + S1x32.size a ≤ S1x32.size a
  h_S1x32 : 0 < S1x32.numel
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S2048x32.size a ≤ S2048x32.size a
  hwx0_0 : ∀ i : grid0.Coords, EltTy.bits .f32 = 32 ∨ (Rect.block (s := S2048x32) S2048x32.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x256.size a ≤ S1x256.size a
  hwx0_8 : ∀ i : grid0.Coords, EltTy.bits .f32 = 32 ∨ (Rect.block (s := S1x256) S1x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S1x32.size a ≤ S1x32.size a
  hwx0_12 : ∀ i : grid0.Coords, EltTy.bits .f32 = 32 ∨ (Rect.block (s := S1x32) S1x32.size (cc0_transform_12 i) (hinb0_12 i)).WholeWords (EltTy.packing .f32)

variable [Facts₀]

abbrev win0_0 : Pipeline.Window sig grid0 :=
  Pipeline.Window.ofSpec (Memref.whole main_arg0) S2048x32.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_call0_v2) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v4) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v5) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_call0_v6) S1x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_call0_v7) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1x256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_call0_v8) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_call0_v9) S1x32.size cc0_transform_12 reads0_12 true true 1 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S2048x32 : Shape := ⟨2, ![2048, 32]⟩
abbrev S1x1 : Shape := ⟨2, ![1, 1]⟩
abbrev S1 : Shape := ⟨1, ![1]⟩
abbrev S1x2048x2048 : Shape := ⟨3, ![1, 2048, 2048]⟩
abbrev S256x1 : Shape := ⟨2, ![256, 1]⟩
abbrev S256 : Shape := ⟨1, ![256]⟩
abbrev S1x256 : Shape := ⟨2, ![1, 256]⟩
abbrev S2048x32x1 : Shape := ⟨3, ![2048, 32, 1]⟩
abbrev S1x1x1 : Shape := ⟨3, ![1, 1, 1]⟩
abbrev S32x2048x1 : Shape := ⟨3, ![32, 2048, 1]⟩
abbrev S32x2048x2048 : Shape := ⟨3, ![32, 2048, 2048]⟩
abbrev S_ : Shape := ⟨0, ![]⟩
abbrev S32x2048 : Shape := ⟨2, ![32, 2048]⟩
abbrev S2048x32x256 : Shape := ⟨3, ![2048, 32, 256]⟩
abbrev S1x1x256 : Shape := ⟨3, ![1, 1, 256]⟩
abbrev S1x32x1 : Shape := ⟨3, ![1, 32, 1]⟩
abbrev S32 : Shape := ⟨1, ![32]⟩

abbrev nBuf : Space → Nat
  | .hbm => 64
  | .vmem => 0
  | .smem => 0
  | _ => 0

abbrev bufTy : (tb : Table) → Fin (tcTables nBuf tb) → BufTy
  | .hbm, ⟨0, _⟩ => ⟨S2048x32, .f32⟩
  | .hbm, ⟨1, _⟩ => ⟨S1x1, .f32⟩
  | .hbm, ⟨2, _⟩ => ⟨S1, .f32⟩
  | .hbm, ⟨3, _⟩ => ⟨S1x1, .f32⟩
  | .hbm, ⟨4, _⟩ => ⟨S1, .f32⟩
  | .hbm, ⟨5, _⟩ => ⟨S1x1, .f32⟩
  | .hbm, ⟨6, _⟩ => ⟨S1, .f32⟩
  | .hbm, ⟨7, _⟩ => ⟨S1x2048x2048, .f32⟩
  | .hbm, ⟨8, _⟩ => ⟨S256x1, .f32⟩
  | .hbm, ⟨9, _⟩ => ⟨S256, .f32⟩
  | .hbm, ⟨10, _⟩ => ⟨S1x256, .f32⟩
  | .hbm, ⟨11, _⟩ => ⟨S1, .f32⟩
  | .hbm, ⟨12, _⟩ => ⟨S2048x32x1, .f32⟩
  | .hbm, ⟨13, _⟩ => ⟨S2048x32x1, .f32⟩
  | .hbm, ⟨14, _⟩ => ⟨S1x1x1, .f32⟩
  | .hbm, ⟨15, _⟩ => ⟨S2048x32x1, .f32⟩
  | .hbm, ⟨16, _⟩ => ⟨S2048x32x1, .f32⟩
  | .hbm, ⟨17, _⟩ => ⟨S32x2048x1, .f32⟩
  | .hbm, ⟨18, _⟩ => ⟨S2048x32x1, .f32⟩
  | .hbm, ⟨19, _⟩ => ⟨S1x1x1, .f32⟩
  | .hbm, ⟨20, _⟩ => ⟨S2048x32x1, .f32⟩
  | .hbm, ⟨21, _⟩ => ⟨S2048x32x1, .f32⟩
  | .hbm, ⟨22, _⟩ => ⟨S32x2048x1, .f32⟩
  | .hbm, ⟨23, _⟩ => ⟨S2048x32x1, .f32⟩
  | .hbm, ⟨24, _⟩ => ⟨S1x1x1, .f32⟩
  | .hbm, ⟨25, _⟩ => ⟨S2048x32x1, .f32⟩
  | .hbm, ⟨26, _⟩ => ⟨S2048x32x1, .f32⟩
  | .hbm, ⟨27, _⟩ => ⟨S32x2048x1, .f32⟩
  | .hbm, ⟨28, _⟩ => ⟨S32x2048x2048, .f32⟩
  | .hbm, ⟨29, _⟩ => ⟨S_, .f32⟩
  | .hbm, ⟨30, _⟩ => ⟨S_, .f32⟩
  | .hbm, ⟨31, _⟩ => ⟨S32x2048x2048, .f32⟩
  | .hbm, ⟨32, _⟩ => ⟨S32x2048x2048, .f32⟩
  | .hbm, ⟨33, _⟩ => ⟨S32x2048x2048, .f32⟩
  | .hbm, ⟨34, _⟩ => ⟨S32x2048x2048, .f32⟩
  | .hbm, ⟨35, _⟩ => ⟨S_, .f32⟩
  | .hbm, ⟨36, _⟩ => ⟨S32x2048, .f32⟩
  | .hbm, ⟨37, _⟩ => ⟨S_, .f32⟩
  | .hbm, ⟨38, _⟩ => ⟨S32x2048, .f32⟩
  | .hbm, ⟨39, _⟩ => ⟨S32x2048, .f32⟩
  | .hbm, ⟨40, _⟩ => ⟨S32x2048x1, .f32⟩
  | .hbm, ⟨41, _⟩ => ⟨S32x2048x2048, .f32⟩
  | .hbm, ⟨42, _⟩ => ⟨S32x2048x2048, .f32⟩
  | .hbm, ⟨43, _⟩ => ⟨S32x2048x2048, .f32⟩
  | .hbm, ⟨44, _⟩ => ⟨S_, .f32⟩
  | .hbm, ⟨45, _⟩ => ⟨S32x2048, .f32⟩
  | .hbm, ⟨46, _⟩ => ⟨S32x2048x1, .f32⟩
  | .hbm, ⟨47, _⟩ => ⟨S32x2048x2048, .f32⟩
  | .hbm, ⟨48, _⟩ => ⟨S32x2048x2048, .f32⟩
  | .hbm, ⟨49, _⟩ => ⟨S32x2048x1, .f32⟩
  | .hbm, ⟨50, _⟩ => ⟨S2048x32x1, .f32⟩
  | .hbm, ⟨51, _⟩ => ⟨S2048x32x256, .f32⟩
  | .hbm, ⟨52, _⟩ => ⟨S1x1x256, .f32⟩
  | .hbm, ⟨53, _⟩ => ⟨S2048x32x256, .f32⟩
  | .hbm, ⟨54, _⟩ => ⟨S2048x32x256, .f32⟩
  | .hbm, ⟨55, _⟩ => ⟨S_, .f32⟩
  | .hbm, ⟨56, _⟩ => ⟨S2048x32x256, .f32⟩
  | .hbm, ⟨57, _⟩ => ⟨S2048x32x256, .f32⟩
  | .hbm, ⟨58, _⟩ => ⟨S2048x32x1, .f32⟩
  | .hbm, ⟨59, _⟩ => ⟨S1x1x1, .f32⟩
  | .hbm, ⟨60, _⟩ => ⟨S2048x32x1, .f32⟩
  | .hbm, ⟨61, _⟩ => ⟨S2048x32x1, .f32⟩
  | .hbm, ⟨62, _⟩ => ⟨S1x32x1, .f32⟩
  | .hbm, ⟨63, _⟩ => ⟨S32, .f32⟩
  | _, _ => ⟨S2048x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_0 : Ref sig .tc := ⟨.hbm, 35, rfl⟩
abbrev main_v22 : Ref sig .tc := ⟨.hbm, 36, rfl⟩
abbrev main_cst_1 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_2 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_call0_cst : Ref sig .tc := ⟨.hbm, 55, rfl⟩
abbrev main_call0_v0 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]

class Facts₀ : Prop where
  bcast_S2048x32_S2048x32x1_0_1 : S2048x32.BroadcastsInDim S2048x32x1 (![0, 1] : Fin 2 → Fin S2048x32x1.rank)
  bcast_S1_S1x1x1_2 : S1.BroadcastsInDim S1x1x1 (![2] : Fin 1 → Fin S1x1x1.rank)
  bcast_S1x1x1_S2048x32x1_0_1_2 : S1x1x1.BroadcastsInDim S2048x32x1 (![0, 1, 2] : Fin 3 → Fin S2048x32x1.rank)
  transposes_S2048x32x1_S32x2048x1_1_0_2 : S2048x32x1.Transposes [1, 0, 2] S32x2048x1
  bcast_S_S32x2048x2048 : S_.BroadcastsInDim S32x2048x2048 (![] : Fin 0 → Fin S32x2048x2048.rank)
  bcast_S1x2048x2048_S32x2048x2048_0_1_2 : S1x2048x2048.BroadcastsInDim S32x2048x2048 (![0, 1, 2] : Fin 3 → Fin S32x2048x2048.rank)
  reducesTo_S32x2048x2048_S32x2048_d2 : S32x2048x2048.ReducesTo [2] S32x2048
  h_S_ : 0 < S_.numel
  bcast_S_S32x2048 : S_.BroadcastsInDim S32x2048 (![] : Fin 0 → Fin S32x2048.rank)
  bcast_S32x2048_S32x2048x1_0_1 : S32x2048.BroadcastsInDim S32x2048x1 (![0, 1] : Fin 2 → Fin S32x2048x1.rank)
  bcast_S32x2048x1_S32x2048x2048_0_1_2 : S32x2048x1.BroadcastsInDim S32x2048x2048 (![0, 1, 2] : Fin 3 → Fin S32x2048x2048.rank)
  transposes_S32x2048x1_S2048x32x1_1_0_2 : S32x2048x1.Transposes [1, 0, 2] S2048x32x1
  bcast_S256_S1x1x256_2 : S256.BroadcastsInDim S1x1x256 (![2] : Fin 1 → Fin S1x1x256.rank)
  bcast_S1x1x256_S2048x32x256_0_1_2 : S1x1x256.BroadcastsInDim S2048x32x256 (![0, 1, 2] : Fin 3 → Fin S2048x32x256.rank)
  bcast_S_S2048x32x256 : S_.BroadcastsInDim S2048x32x256 (![] : Fin 0 → Fin S2048x32x256.rank)
  slices_S2048x32x1_S1x32x1_0_0_0 : S2048x32x1.Slices ![0, 0, 0] S1x32x1
  shapeCasts_S1x32x1_S32 : S1x32x1.ShapeCasts S32
  dot_S2048x32x1_S1x1_S2048x32x1_2_1_01_0_n_n_wf : DotDims.WF S2048x32x1 S1x1 S2048x32x1 [2] [1] [0, 1] [0] [] []
  dot_S32x2048x1_S32x2048x1_S32x2048x2048_2_2_1_1_0_0_wf : DotDims.WF S32x2048x1 S32x2048x1 S32x2048x2048 [2] [2] [1] [1] [0] [0]
  dot_S32x2048x2048_S32x2048x1_S32x2048x1_2_1_1_2_0_0_wf : DotDims.WF S32x2048x2048 S32x2048x1 S32x2048x1 [2] [1] [1] [2] [0] [0]
  dot_S2048x32x1_S256x1_S2048x32x256_2_1_01_0_n_n_wf : DotDims.WF S2048x32x1 S256x1 S2048x32x256 [2] [1] [0, 1] [0] [] []
  dot_S2048x32x256_S1x256_S2048x32x1_2_1_01_0_n_n_wf : DotDims.WF S2048x32x256 S1x256 S2048x32x1 [2] [1] [0, 1] [0] [] []

variable [Facts₀]

def dot_S2048x32x1_S1x1_S2048x32x1_2_1_01_0_n_n : DotDims S2048x32x1 S1x1 S2048x32x1 where
  lhsContracting := [2]
  rhsContracting := [1]
  lhsNonContracting := [0, 1]
  rhsNonContracting := [0]
  lhsBatch := []
  rhsBatch := []
  wf := dot_S2048x32x1_S1x1_S2048x32x1_2_1_01_0_n_n_wf
def dot_S32x2048x1_S32x2048x1_S32x2048x2048_2_2_1_1_0_0 : DotDims S32x2048x1 S32x2048x1 S32x2048x2048 where
  lhsContracting := [2]
  rhsContracting := [2]
  lhsNonContracting := [1]
  rhsNonContracting := [1]
  lhsBatch := [0]
  rhsBatch := [0]
  wf := dot_S32x2048x1_S32x2048x1_S32x2048x2048_2_2_1_1_0_0_wf
def dot_S32x2048x2048_S32x2048x1_S32x2048x1_2_1_1_2_0_0 : DotDims S32x2048x2048 S32x2048x1 S32x2048x1 where
  lhsContracting := [2]
  rhsContracting := [1]
  lhsNonContracting := [1]
  rhsNonContracting := [2]
  lhsBatch := [0]
  rhsBatch := [0]
  wf := dot_S32x2048x2048_S32x2048x1_S32x2048x1_2_1_1_2_0_0_wf
def dot_S2048x32x1_S256x1_S2048x32x256_2_1_01_0_n_n : DotDims S2048x32x1 S256x1 S2048x32x256 where
  lhsContracting := [2]
  rhsContracting := [1]
  lhsNonContracting := [0, 1]
  rhsNonContracting := [0]
  lhsBatch := []
  rhsBatch := []
  wf := dot_S2048x32x1_S256x1_S2048x32x256_2_1_01_0_n_n_wf
def dot_S2048x32x256_S1x256_S2048x32x1_2_1_01_0_n_n : DotDims S2048x32x256 S1x256 S2048x32x1 where
  lhsContracting := [2]
  rhsContracting := [1]
  lhsNonContracting := [0, 1]
  rhsNonContracting := [0]
  lhsBatch := []
  rhsBatch := []
  wf := dot_S2048x32x256_S1x256_S2048x32x1_2_1_01_0_n_n_wf

class Facts : Prop extends Facts₀ where

variable [Facts]
-- ==== Proof.Spec.lean ====
/-
  The function both programs compute, stated once over the argument arrays and read entry by entry.

  A sequence of 2048 tokens, 32 sequences side by side, one feature per token. Token `s` of sequence `b` is the entry
  `src (s, b)`; its query, key and value are the affine images `src (s, b) · w + c` under three pairs `(w, c)`. Query
  row `s` of sequence `b` scores key `t` by `q · k + bias (s, t)`; the scores of a row are shifted by their maximum,
  exponentiated and divided by their sum (a softmax over `t`), and the weights average the values: the context. A
  two-layer perceptron with 256 hidden units, `max (ctx · W1 j + b1 j) 0` then the `W2`-weighted sum plus `b2`, gives the
  output of row `s`. Only query row `0` of every sequence is returned: a vector of 32 numbers.

  Everything is an extended real; no identity below needs finiteness. The constants are kept as the words the
  programs print; only `1.0` (the score scale), `√1` and `0.0` (a sum's start) are ever evaluated.
-/
import Idealize.ShloMosaic.PureOps.Ideal
import Idealize.ShloMosaic.PureOps.Ideal.Laws
import Idealize.ShloMosaic.Lib.ValueIdx
import Mathlib.Data.Finset.Fold

noncomputable section

namespace Cert.RowAttn

open Idealize.ShloMosaic Idealize.ShloMosaic.ValueIdx

/-! ## The function -/

/-- The word of `-∞`, from which a row's maximum starts. -/
abbrev negInf : EReal := Ideal.ofBits .f32 0xFF800000#32

/-- The word of `0.0`, the floor of the hidden layer. -/
abbrev zeroW : EReal := Ideal.ofBits .f32 0x00000000#32

/-- The maximum of 2048 numbers, started from `-∞`. -/
def rowMax (f : Fin 2048 → EReal) : EReal := (Finset.univ : Finset (Fin 2048)).fold max negInf f

/-- Taking the maximum with the start once more changes nothing. -/
theorem max_negInf_rowMax (f : Fin 2048 → EReal) : max negInf (rowMax f) = rowMax f :=
  max_eq_right ((Finset.le_fold_max _).mpr (Or.inl le_rfl))

/-! ### One query row

The computation for one query of one sequence, over plain functions of the key position `t` and of the hidden unit
`j`: the programs differ in how they lay these numbers out, not in what they do with them. -/

/-- An affine image `x · w + c`. -/
def affine (x w c : EReal) : EReal := x * w + c

/-- The query's score against key `t`. -/
def scoreRow (q : EReal) (k bias : Fin 2048 → EReal) (t : Fin 2048) : EReal := q * k t + bias t

/-- A score shifted by the row's maximum and exponentiated. -/
def expoRow (sc : Fin 2048 → EReal) (t : Fin 2048) : EReal := Ideal.exp (sc t - rowMax sc)

/-- The row's normaliser. -/
def denomRow (sc : Fin 2048 → EReal) : EReal := ∑ t : Fin 2048, expoRow sc t

/-- The attention weight of key `t`. -/
def attnRow (sc : Fin 2048 → EReal) (t : Fin 2048) : EReal := Ideal.div (expoRow sc t) (denomRow sc)

/-- The context: the values averaged by the weights. -/
def ctxRow (sc val : Fin 2048 → EReal) : EReal := ∑ t : Fin 2048, attnRow sc t * val t

/-- Hidden unit `j` of the perceptron on the context `c`. -/
def hidden (c : EReal) (w1 b1 : Fin 256 → EReal) (j : Fin 256) : EReal := max (c * w1 j + b1 j) zeroW

/-- The perceptron's output on the context `c`. -/
def mlp (c : EReal) (w1 b1 w2 : Fin 256 → EReal) (b2 : EReal) : EReal := (∑ j : Fin 256, hidden c w1 b1 j * w2 j) + b2

/-- One query row from its query, keys, values and bias row, through the perceptron. -/
def rowOut (q : EReal) (k v bias : Fin 2048 → EReal) (w1 b1 w2 : Fin 256 → EReal) (b2 : EReal) : EReal :=
  mlp (ctxRow (scoreRow q k bias) v) w1 b1 w2 b2

/-! ### Over the argument arrays -/

section
variable (src : (⟨2, ![2048, 32]⟩ : Shape).Idx → EReal)
  (wq : (⟨2, ![1, 1]⟩ : Shape).Idx → EReal) (bq : (⟨1, ![1]⟩ : Shape).Idx → EReal)
  (wk : (⟨2, ![1, 1]⟩ : Shape).Idx → EReal) (bk : (⟨1, ![1]⟩ : Shape).Idx → EReal)
  (wv : (⟨2, ![1, 1]⟩ : Shape).Idx → EReal) (bv : (⟨1, ![1]⟩ : Shape).Idx → EReal)
  (bias : (⟨3, ![1, 2048, 2048]⟩ : Shape).Idx → EReal)
  (W1 : (⟨2, ![256, 1]⟩ : Shape).Idx → EReal) (b1 : (⟨1, ![256]⟩ : Shape).Idx → EReal)
  (W2 : (⟨2, ![1, 256]⟩ : Shape).Idx → EReal) (b2 : (⟨1, ![1]⟩ : Shape).Idx → EReal)

/-- The affine image of token `s` of sequence `b` under the pair `(w, c)`. -/
def proj (w : (⟨2, ![1, 1]⟩ : Shape).Idx → EReal) (c : (⟨1, ![1]⟩ : Shape).Idx → EReal) (s : Fin 2048) (b : Fin 32) : EReal :=
  affine (src (ix2 s b)) (w (ix2 0 0)) (c (ix1 0))

/-- The scores of query row `s` of sequence `b`. -/
def score (b : Fin 32) (s : Fin 2048) : Fin 2048 → EReal :=
  scoreRow (proj src wq bq s b) (fun t => proj src wk bk t b) (fun t => bias (ix3 0 s t))

/-- The context of query row `s` of sequence `b`. -/
def ctx (b : Fin 32) (s : Fin 2048) : EReal :=
  ctxRow (score src wq bq wk bk bias b s) (fun t => proj src wv bv t b)

/-- The result: query row `0` of every sequence, through the perceptron. -/
def result : (⟨1, ![32]⟩ : Shape).Idx → EReal :=
  fun i => mlp (ctx src wq bq wk bk wv bv bias (i 0) 0) (fun j => W1 (ix2 j 0)) (fun j => b1 (ix1 j)) (fun j => W2 (ix2 0 j))
    (b2 (ix1 0))

end

end Cert.RowAttn

end
-- ==== Proof.LibKeepdims.lean ====
/-
  Two layout operations read at an index given by coordinates, for a row reduction that keeps its axis
  (`sum(..., axis=-1, keepdims=True)`): the reduced vector `[a]` is first viewed as a column `[a, 1]`, and the column is
  then broadcast along the second axis to `[a, b]`. At `(p, c)` both read the vector's entry `p`: a row-major position in
  `[a, 1]` is the row number itself, and a broadcast reads coordinate `0` on the operand's unit axis whatever `c` is.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(p, u)`, the operand at `p`, whatever the unit coordinate `u`:
    the row-major position of `(p, u)` in `[a, 1]` is `p · 1 + u = p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast to `[a, b]` reads, at `(p, c)`, the column's entry `p`: the first axis is kept (also when
    `a = 1`, where the only row is row `0`), the second is the operand's unit axis and reads `0`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.LibRowReduce.lean ====
/-
  Row reductions of a matrix and a scalar broadcast, read at an index given by coordinates, at the exact values.

  A `vector.multi_reduction` along axis `1` of an `[a, b]` array, read at row `p`: for `<add>` from the zero word the sum
  over the row's `b` entries; for `<maximumf>` from the word of `-∞` the fold of `max` over them, in any order. Both are
  stated with the accumulator hypothesis as the printed programs carry it (an equation between two copies of the same
  word), so that they apply to a printed reduction as it stands. A `[1, 1]` array broadcast to `[a, b]` reads its one
  entry everywhere. Generic in `a` and `b`.
-/
import Idealize.ShloMosaic.Lib.Pipeline.Value
import Idealize.ShloMosaic.Lib.ValueIdx
import Idealize.ShloMosaic.PureOps.Ideal.Laws

namespace Idealize.ShloMosaic.ValueIdx

open Idealize.ShloMosaic

/-- A `[1, 1]` array broadcast to `[a, b]` reads, at every `(p, c)`, its one entry: both axes of the operand are unit
    axes and read coordinate `0`. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) :=
  broadcastTo_apply v h (ix2 p c) (ix2 (0 : Fin 1) (0 : Fin 1)) fun ax => by
    match ax with
    | ⟨0, _⟩ => rfl
    | ⟨1, _⟩ => rfl

/-- The sum along the rows of an `[a, b]` array of exact values, at row `p`: the sum over the row's `b` entries (the
    reduced index with the coordinate `t` put back on axis `1` is `(p, t)`). -/
theorem multiReduction_add_row {a b : ℕ} (src : FVec Ideal ⟨2, ![a, b]⟩ .f32) (h : (⟨2, ![a, b]⟩ : Shape).Reduces [1] ⟨1, ![a]⟩)
    (hφ : FKind.Formats .f32) (hacc : (0x00000000#32 : BitVec 32) = 0x00000000#32) (p : Fin a) :
    multiReduction .add [1] ⟨1, ![a]⟩ src 0x00000000#32 h hφ hacc (ix1 p) = ∑ t : Fin b, src (ix2 p t) := by
  refine (Ideal.multiReduction_add_single src 0x00000000#32 h hφ hacc (ix1 p)).trans ?_
  exact Finset.sum_congr rfl fun t _ => congrArg src (funext fun c => Fin.ext (by
    match c with
    | ⟨0, _⟩ => rfl
    | ⟨1, _⟩ => rfl))

/-- The maximum along the rows of an `[a, b]` array of exact values, at row `p`: the fold of `max` over the row's `b`
    entries, started from what the word of `-∞` denotes. -/
theorem multiReduction_maximumf_row {a b : ℕ} (src : FVec Ideal ⟨2, ![a, b]⟩ .f32)
    (h : (⟨2, ![a, b]⟩ : Shape).Reduces [1] ⟨1, ![a]⟩) (hφ : FKind.Formats .f32)
    (hacc : (0xFF800000#32 : BitVec 32) = 0xFF800000#32) (p : Fin a) :
    multiReduction .maximumf [1] ⟨1, ![a]⟩ src 0xFF800000#32 h hφ hacc (ix1 p)
      = (Finset.univ : Finset (Fin b)).fold max (Ideal.ofBits .f32 0xFF800000#32) (fun t => src (ix2 p t)) := by
  refine (Ideal.multiReduction_maximumf_single src 0xFF800000#32 h hφ hacc (ix1 p)).trans ?_
  refine congrArg ((Finset.univ : Finset (Fin b)).fold max (Ideal.ofBits .f32 0xFF800000#32)) (funext fun t => ?_)
  exact congrArg src (funext fun c => Fin.ext (by
    match c with
    | ⟨0, _⟩ => rfl
    | ⟨1, _⟩ => rfl))

end Idealize.ShloMosaic.ValueIdx
-- ==== Proof.LibIndexCoords.lean ====
/-
  An array read at an index is the array read at the index's coordinates; and three scalar facts at the exact values.

  An index of a literal shape is determined by its coordinates (`eq_ix1` … `eq_ix3`), so `x u` can be rewritten to
  `x (ix2 (u 0) (u 1))` for ANY index term `u`, however it was computed: after that the coordinates `u 0`, `u 1` reduce by
  evaluation where `u` is a composition of index maps written by cases on the axis, and a closing `rfl` sees through
  them. On an axis of extent one the coordinate is `0`. These are meant for `rw [app_ab x]`, with the array `x` named and
  the index left to unification.

  The scalar facts: the word `0x3F800000` denotes one, the square root of one is one, and division by one is the
  identity on every extended real.
-/
import Idealize.ShloMosaic.PureOps.Ideal
import Idealize.ShloMosaic.PureOps.IdealRules
import Idealize.ShloMosaic.Lib.ValueIdx

namespace Idealize.ShloMosaic.ValueIdx

open Idealize.ShloMosaic

section Index
variable {α : Type}

/-- A vector at any index is the vector at that index's coordinate. -/
theorem app_a {n : ℕ} (x : (⟨1, ![n]⟩ : Shape).Idx → α) (u : (⟨1, ![n]⟩ : Shape).Idx) : x u = x (ix1 (u 0)) :=
  congrArg x (eq_ix1 u)

/-- A matrix at any index is the matrix at that index's two coordinates. -/
theorem app_ab {n0 n1 : ℕ} (x : (⟨2, ![n0, n1]⟩ : Shape).Idx → α) (u : (⟨2, ![n0, n1]⟩ : Shape).Idx) :
    x u = x (ix2 (u 0) (u 1)) :=
  congrArg x (eq_ix2 u)

/-- A rank-3 array at any index is the array at that index's three coordinates. -/
theorem app_abc {n0 n1 n2 : ℕ} (x : (⟨3, ![n0, n1, n2]⟩ : Shape).Idx → α) (u : (⟨3, ![n0, n1, n2]⟩ : Shape).Idx) :
    x u = x (ix3 (u 0) (u 1) (u 2)) :=
  congrArg x (eq_ix3 u)

/-- An axis of extent one has the single coordinate zero. -/
theorem fin_one (a : Fin 1) : a = 0 := Subsingleton.elim _ _

/-- A one-entry vector is read at `0` whatever the index. -/
theorem app_1 (x : (⟨1, ![1]⟩ : Shape).Idx → α) (u : (⟨1, ![1]⟩ : Shape).Idx) : x u = x (ix1 0) := by
  rw [app_a x u, fin_one (u 0)]

/-- A one-entry matrix is read at `(0, 0)` whatever the index. -/
theorem app_11 (x : (⟨2, ![1, 1]⟩ : Shape).Idx → α) (u : (⟨2, ![1, 1]⟩ : Shape).Idx) : x u = x (ix2 0 0) := by
  rw [app_ab x u, fin_one (u 0), fin_one (u 1)]

/-- A one-row matrix is read in row `0`. -/
theorem app_1b {n : ℕ} (x : (⟨2, ![1, n]⟩ : Shape).Idx → α) (u : (⟨2, ![1, n]⟩ : Shape).Idx) : x u = x (ix2 0 (u 1)) := by
  rw [app_ab x u, fin_one (u 0)]

/-- A one-column matrix is read in column `0`. -/
theorem app_a1 {n : ℕ} (x : (⟨2, ![n, 1]⟩ : Shape).Idx → α) (u : (⟨2, ![n, 1]⟩ : Shape).Idx) : x u = x (ix2 (u 0) 0) := by
  rw [app_ab x u, fin_one (u 1)]

/-- A rank-3 array with a leading unit axis is read at `0` on it. -/
theorem app_1ab {n1 n2 : ℕ} (x : (⟨3, ![1, n1, n2]⟩ : Shape).Idx → α) (u : (⟨3, ![1, n1, n2]⟩ : Shape).Idx) :
    x u = x (ix3 0 (u 1) (u 2)) := by
  rw [app_abc x u, fin_one (u 0)]

end Index

/-- The f32 word of `1.0` denotes one. -/
theorem ofBits_one_f32 : Ideal.ofBits .f32 0x3F800000#32 = 1 := IdealRules.sign_bit.ideal_onePat .f32

/-- The square root of one is one. -/
theorem ideal_sqrt_one : Ideal.sqrt 1 = 1 := by
  rw [← EReal.coe_one, Ideal.sqrt_coe, if_neg (by norm_num), Real.sqrt_one]

/-- Dividing by one changes nothing, at the infinities too. -/
theorem ideal_div_one (x : EReal) : Ideal.div x 1 = x := by
  rw [← EReal.coe_one, Ideal.div_coe one_ne_zero, _root_.div_one, EReal.coe_one, mul_one]

end Idealize.ShloMosaic.ValueIdx
-- ==== Proof.KernelBody.lean ====
/-
  The kernel's body as a function of the blocks it loads, read entry by entry.

  The body transposes the `[2048, 32]` block of tokens to `[32, 2048]` (one row per sequence), forms query, keys and
  values by scalar affine maps, scores the query of token `0` against every key, takes the softmax along the row, the
  weighted sum of the values, and runs the perceptron along the 256 lanes; the column of 32 outputs is transposed to a
  row. Each step below names one intermediate vector of the body and says what it holds at `(b, t)`; the last theorem
  says the stored row holds, at `(0, b)`, the specification's value for query row `0` of sequence `b`.
-/
import proofs.«102933_j32899449487822_2_alg».proof.Proof.Gen.KernelIdeal.Skeleton
import proofs.«102933_j32899449487822_2_alg».proof.Proof.Spec
import proofs.«102933_j32899449487822_2_alg».proof.Proof.LibKeepdims
import proofs.«102933_j32899449487822_2_alg».proof.Proof.LibRowReduce
import proofs.«102933_j32899449487822_2_alg».proof.Proof.LibIndexCoords
import Idealize.ShloMosaic.Lib.ValueLayout
import Idealize.ShloMosaic.Lib.Pipeline.Value
import Idealize.ShloMosaic.PureOps.Ideal.Laws

noncomputable section

namespace Cert.KernelBody

open Cert.KernelIdeal Cert.KernelIdeal.Gen Cert.RowAttn
open Idealize.ShloMosaic Idealize.ShloMosaic.ValueIdx

/-! ## The body's intermediate vectors -/

section Body
variable (v0 : Vec Ideal S2048x32 .f32) (v2 : Vec Ideal S1x2048 .f32)
  (v4 v5 v7 v8 v10 v11 : Vec Ideal S1x1 .f32) (v44 v46 v55 : Vec Ideal S1x256 .f32) (v56 : Vec Ideal S1x1 .f32)

/-- The transposed tokens, one row per sequence. -/
theorem tokens_at (b : Fin 32) (t : Fin 2048) : k0_pay2 (F := Ideal) v0 (ix2 b t) = v0 (ix2 t b) :=
  transpose_ix2_apply v0 _ b t

/-- An affine image of every token: `tokens · w + c`, the pair broadcast from `[1, 1]`. -/
def affineAll (w c : Vec Ideal S1x1 .f32) : FVec Ideal S32x2048 .f32 :=
  addf (mulf (k0_pay2 v0) (broadcastTo S32x2048 w broadcasts_S1x1_S32x2048))
    (broadcastTo S32x2048 (shapeCast S1x1 c shapeCasts_S1x1_S1x1) broadcasts_S1x1_S32x2048)

theorem affineAll_at (w c : Vec Ideal S1x1 .f32) (b : Fin 32) (t : Fin 2048) :
    affineAll v0 w c (ix2 b t) = affine (v0 (ix2 t b)) (w (ix2 0 0)) (c (ix2 0 0)) := by
  unfold affineAll
  rw [addf_apply, mulf_apply, tokens_at, broadcastTo_11_ab_apply, broadcastTo_11_ab_apply, shapeCast_self]
  rfl

/-- The values are one such image. -/
theorem values_eq : k0_pay3 (F := Ideal) v0 v10 v11 = affineAll v0 v10 v11 := rfl

/-- The queries of token `0`, a column. -/
def queryCol : FVec Ideal S32x1 .f32 :=
  addf (mulf (extractStridedSlice S32x1 ![0, 0] (k0_pay2 v0) slices_S32x2048_o0_0_S32x1) (broadcastTo S32x1 v4 broadcasts_S1x1_S32x1))
    (broadcastTo S32x1 (shapeCast S1x1 v5 shapeCasts_S1x1_S1x1) broadcasts_S1x1_S32x1)

theorem queryCol_at (b : Fin 32) :
    queryCol v0 v4 v5 (ix2 b 0) = affine (v0 (ix2 0 b)) (v4 (ix2 0 0)) (v5 (ix2 0 0)) := by
  unfold queryCol
  rw [addf_apply, mulf_apply, slice2_axis1_apply 0 (k0_pay2 v0) _ b 0 0 rfl, tokens_at, broadcastTo_11_ab_apply,
    broadcastTo_11_ab_apply, shapeCast_self]
  rfl

/-- The scores of query `0` against every key, plus the bias row. -/
def scores : FVec Ideal S32x2048 .f32 :=
  addf (mulf (mulf (broadcastTo S32x2048 (queryCol v0 v4 v5) broadcasts_S32x1_S32x2048) (affineAll v0 v7 v8))
      (broadcast S32x2048 (Scalar.ofBits .f32 0x3F800000#32)))
    (broadcastTo S32x2048 (shapeCast S1x2048 v2 shapeCasts_S1x2048_S1x2048) broadcasts_S1x2048_S32x2048)

/-- The scores of sequence `b` as the specification's row: the factor `1.0` changes nothing. -/
abbrev scoreSpec (b : Fin 32) : Fin 2048 → EReal :=
  scoreRow (affine (v0 (ix2 0 b)) (v4 (ix2 0 0)) (v5 (ix2 0 0)))
    (fun t => affine (v0 (ix2 t b)) (v7 (ix2 0 0)) (v8 (ix2 0 0))) (fun t => v2 (ix2 0 t))

theorem scores_at (b : Fin 32) (t : Fin 2048) : scores v0 v2 v4 v5 v7 v8 (ix2 b t) = scoreSpec v0 v2 v4 v5 v7 v8 b t := by
  unfold scores
  rw [addf_apply, mulf_apply, mulf_apply, broadcastTo_a1_ab_apply, queryCol_at, affineAll_at, broadcast_apply,
    shapeCast_self, broadcastTo_1b_ab_apply]
  show _ * _ * Ideal.ofBits .f32 0x3F800000#32 + _ = _
  rw [ofBits_one_f32, mul_one]
  rfl

/-- The maximum of each row of scores. -/
def scoreMax : FVec Ideal S32 .f32 :=
  multiReduction .maximumf [1] S32 (scores v0 v2 v4 v5 v7 v8) 0xFF800000#32 reduces_S32x2048_S32 (.inl rfl) rfl

theorem scoreMax_at (b : Fin 32) : scoreMax v0 v2 v4 v5 v7 v8 (ix1 b) = rowMax (scoreSpec v0 v2 v4 v5 v7 v8 b) := by
  unfold scoreMax
  refine (multiReduction_maximumf_row (scores v0 v2 v4 v5 v7 v8) reduces_S32x2048_S32 (.inl rfl) rfl b).trans ?_
  exact congrArg rowMax (funext fun t => scores_at v0 v2 v4 v5 v7 v8 b t)

/-- The exponentials are the body's second carried value. -/
theorem expos_eq : k0_pay4 (F := Ideal) v0 v2 v4 v5 v7 v8
    = exp (subf (scores v0 v2 v4 v5 v7 v8)
        (broadcastTo S32x2048 (shapeCast S32x1 (scoreMax v0 v2 v4 v5 v7 v8) shapeCasts_S32_S32x1) broadcasts_S32x1_S32x2048)) := rfl

theorem expos_at (b : Fin 32) (t : Fin 2048) :
    k0_pay4 (F := Ideal) v0 v2 v4 v5 v7 v8 (ix2 b t) = expoRow (scoreSpec v0 v2 v4 v5 v7 v8 b) t := by
  rw [expos_eq]
  have h : (subf (scores v0 v2 v4 v5 v7 v8)
      (broadcastTo S32x2048 (shapeCast S32x1 (scoreMax v0 v2 v4 v5 v7 v8) shapeCasts_S32_S32x1) broadcasts_S32x1_S32x2048)) (ix2 b t)
      = scoreSpec v0 v2 v4 v5 v7 v8 b t - rowMax (scoreSpec v0 v2 v4 v5 v7 v8 b) := by
    rw [subf_apply, scores_at, broadcastTo_a1_ab_apply, shapeCast_a_a1_apply, scoreMax_at]
  exact congrArg Ideal.exp h

/-- The sum along the rows of a `[32, 2048]` vector. -/
def rowSums (x : FVec Ideal S32x2048 .f32) : FVec Ideal S32 .f32 :=
  multiReduction .add [1] S32 x 0x00000000#32 reduces_S32x2048_S32 (.inl rfl) rfl

theorem rowSums_at (x : FVec Ideal S32x2048 .f32) (b : Fin 32) : rowSums x (ix1 b) = ∑ t : Fin 2048, x (ix2 b t) :=
  multiReduction_add_row x reduces_S32x2048_S32 (.inl rfl) rfl b

/-- The normalisers, broadcast along the rows, are the body's third carried value. -/
theorem denoms_eq : k0_pay5 (F := Ideal) v0 v2 v4 v5 v7 v8
    = broadcastTo S32x2048 (shapeCast S32x1 (rowSums (k0_pay4 v0 v2 v4 v5 v7 v8)) shapeCasts_S32_S32x1) broadcasts_S32x1_S32x2048 := rfl

theorem denoms_at (b : Fin 32) (t : Fin 2048) :
    k0_pay5 (F := Ideal) v0 v2 v4 v5 v7 v8 (ix2 b t) = denomRow (scoreSpec v0 v2 v4 v5 v7 v8 b) := by
  rw [denoms_eq, broadcastTo_a1_ab_apply, shapeCast_a_a1_apply, rowSums_at]
  exact Finset.sum_congr rfl fun t _ => expos_at v0 v2 v4 v5 v7 v8 b t

/-- The context of every sequence: the row sums of weights times values. -/
theorem context_at (E D V : FVec Ideal S32x2048 .f32) (sc val : Fin 2048 → EReal) (b : Fin 32)
    (hE : ∀ t, E (ix2 b t) = expoRow sc t) (hD : ∀ t, D (ix2 b t) = denomRow sc) (hV : ∀ t, V (ix2 b t) = val t) :
    rowSums (mulf (divf E D) V) (ix1 b) = ctxRow sc val := by
  rw [rowSums_at]
  refine Finset.sum_congr rfl fun t _ => ?_
  rw [mulf_apply, divf_apply, hE, hD, hV]
  rfl

/-- The hidden layer on a vector of contexts. -/
def hiddenAll (c : FVec Ideal S32 .f32) : FVec Ideal S32x256 .f32 :=
  maximumf
    (addf (mulf (broadcastTo S32x256 (shapeCast S32x1 c shapeCasts_S32_S32x1) broadcasts_S32x1_S32x256)
        (broadcastTo S32x256 (shapeCast S1x256 v44 shapeCasts_S1x256_S1x256) broadcasts_S1x256_S32x256))
      (broadcastTo S32x256 (shapeCast S1x256 v46 shapeCasts_S1x256_S1x256) broadcasts_S1x256_S32x256))
    (broadcast S32x256 (Scalar.ofBits .f32 0x00000000#32))

theorem hiddenAll_at (c : FVec Ideal S32 .f32) (b : Fin 32) (j : Fin 256) :
    hiddenAll v44 v46 c (ix2 b j) = hidden (c (ix1 b)) (fun j => v44 (ix2 0 j)) (fun j => v46 (ix2 0 j)) j := by
  unfold hiddenAll
  rw [maximumf_apply, addf_apply, mulf_apply, broadcastTo_a1_ab_apply, shapeCast_a_a1_apply, shapeCast_self, shapeCast_self,
    broadcastTo_1b_ab_apply, broadcastTo_1b_ab_apply, broadcast_apply]
  rfl

/-- The output column on a hidden layer. -/
def outputCol (hd : FVec Ideal S32x256 .f32) : FVec Ideal S32x1 .f32 :=
  addf (shapeCast S32x1
      (multiReduction .add [1] S32 (mulf hd (broadcastTo S32x256 v55 broadcasts_S1x256_S32x256)) 0x00000000#32 reduces_S32x256_S32
        (.inl rfl) rfl) shapeCasts_S32_S32x1)
    (broadcastTo S32x1 (shapeCast S1x1 v56 shapeCasts_S1x1_S1x1) broadcasts_S1x1_S32x1)

theorem outputCol_at (hd : FVec Ideal S32x256 .f32) (b : Fin 32) :
    outputCol v55 v56 hd (ix2 b 0) = (∑ j : Fin 256, hd (ix2 b j) * v55 (ix2 0 j)) + v56 (ix2 0 0) := by
  unfold outputCol
  rw [addf_apply, shapeCast_a_a1_apply, broadcastTo_11_ab_apply, shapeCast_self]
  refine congrArg (· + v56 (ix2 0 0)) ?_
  refine (multiReduction_add_row _ reduces_S32x256_S32 (.inl rfl) rfl b).trans ?_
  exact Finset.sum_congr rfl fun j _ => by rw [mulf_apply, broadcastTo_1b_ab_apply]

/-- The stored row is the output column transposed. -/
theorem stored_eq (v25 v36 v39 : FVec Ideal S32x2048 .f32) : k0_pay1 (F := Ideal) v25 v36 v39 v44 v46 v55 v56
    = transpose S1x32 [1, 0] (outputCol v55 v56 (hiddenAll v44 v46 (rowSums (mulf (divf v36 v39) v25))))
        transposes_S32x1_p1_0_S1x32 := rfl

/-- What the body stores, at `(0, b)`: the specification's output for query row `0` of sequence `b`, over the loaded
    blocks. -/
theorem stored_at (b : Fin 32) :
    k0_pay1 (F := Ideal) (k0_pay3 v0 v10 v11) (k0_pay4 v0 v2 v4 v5 v7 v8) (k0_pay5 v0 v2 v4 v5 v7 v8) v44 v46 v55 v56 (ix2 0 b)
      = rowOut (affine (v0 (ix2 0 b)) (v4 (ix2 0 0)) (v5 (ix2 0 0)))
          (fun t => affine (v0 (ix2 t b)) (v7 (ix2 0 0)) (v8 (ix2 0 0)))
          (fun t => affine (v0 (ix2 t b)) (v10 (ix2 0 0)) (v11 (ix2 0 0))) (fun t => v2 (ix2 0 t))
          (fun j => v44 (ix2 0 j)) (fun j => v46 (ix2 0 j)) (fun j => v55 (ix2 0 j)) (v56 (ix2 0 0)) := by
  rw [stored_eq, transpose_ix2_apply, outputCol_at]
  simp only [hiddenAll_at]
  rw [context_at (k0_pay4 v0 v2 v4 v5 v7 v8) (k0_pay5 v0 v2 v4 v5 v7 v8) (k0_pay3 v0 v10 v11)
    (scoreSpec v0 v2 v4 v5 v7 v8 b) (fun t => affine (v0 (ix2 t b)) (v10 (ix2 0 0)) (v11 (ix2 0 0))) b
    (expos_at v0 v2 v4 v5 v7 v8 b) (denoms_at v0 v2 v4 v5 v7 v8 b)
    (fun t => by rw [values_eq]; exact affineAll_at v0 v10 v11 b t)]
  rfl

end Body

end Cert.KernelBody

end
-- ==== Proof.KernelValue.lean ====
/-
  The kernel's run, read: what its result array holds, as the specification's function of the argument arrays.

  The call has one grid point and every window is its whole array, so each loaded block is the array itself and the
  one stored block is the whole `[1, 32]` output; the reshape after the call reads its entry `(0, b)` at `b`. The arrays
  the host prepares before the call are reshapes of arguments, and the bias row is the slice `bias (0, 0, ·)`.
-/
import proofs.«102933_j32899449487822_2_alg».proof.Proof.Gen.KernelIdeal.Frame
import proofs.«102933_j32899449487822_2_alg».proof.Proof.KernelBody
import Idealize.ShloMosaic.Lib.Pipeline.Value
import Idealize.ShloMosaic.Lib.StableHlo.Run
import Idealize.ShloMosaic.Lib.ValueLayout

set_option maxRecDepth 16384

noncomputable section

namespace Cert.KernelValue

open Cert.KernelIdeal Cert.KernelIdeal.Gen Cert.RowAttn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## Every block is its whole array -/

theorem hz : (![0, 0] : Fin 2 → Nat) = fun _ => 0 := funext fun a => by fin_cases a <;> rfl

/-- At the one grid point every window's block index is zero on both axes. -/
theorem index_zero : ∀ t : Fin cfg0.N,
    (∀ a : Fin 2, win0_0.index t a = 0) ∧ (∀ a : Fin 2, win0_1.index t a = 0) ∧ (∀ a : Fin 2, win0_2.index t a = 0)
    ∧ (∀ a : Fin 2, win0_3.index t a = 0) ∧ (∀ a : Fin 2, win0_4.index t a = 0) ∧ (∀ a : Fin 2, win0_5.index t a = 0)
    ∧ (∀ a : Fin 2, win0_6.index t a = 0) ∧ (∀ a : Fin 2, win0_7.index t a = 0) ∧ (∀ a : Fin 2, win0_8.index t a = 0)
    ∧ (∀ a : Fin 2, win0_9.index t a = 0) ∧ (∀ a : Fin 2, win0_10.index t a = 0) ∧ (∀ a : Fin 2, win0_11.index t a = 0)
    ∧ (∀ a : Fin 2, win0_12.index t a = 0) :=
  (by decide +kernel : ∀ t : Fin grid0.N, _)

/-- The tokens' block is the tokens' array. -/
theorem block0 (c : Dev nD) (t : Fin cfg0.N) (y : S2048x32.Idx) : iblk m c 0 t y = V m c main_arg0 y := by
  show V m c main_arg0 (((cfg0.win 0).blk t).view.emb y) = V m c main_arg0 y
  refine congrArg (V m c main_arg0) (funext fun a => Fin.ext ?_)
  have h := (index_zero t).1 a
  show win0_0.index t a * S2048x32.size a + 1 * (y a).val = (y a).val
  rw [h]; omega

theorem block1 (c : Dev nD) (t : Fin cfg0.N) (y : S1x2048.Idx) : iblk m c 1 t y = V m c main_call0_v2 y := by
  show V m c main_call0_v2 (((cfg0.win 1).blk t).view.emb y) = V m c main_call0_v2 y
  refine congrArg (V m c main_call0_v2) (funext fun a => Fin.ext ?_)
  have h := (index_zero t).2.1 a
  show win0_1.index t a * S1x2048.size a + 1 * (y a).val = (y a).val
  rw [h]; omega

theorem block2 (c : Dev nD) (t : Fin cfg0.N) (y : S1x1.Idx) : iblk m c 2 t y = V m c main_arg1 y := by
  show V m c main_arg1 (((cfg0.win 2).blk t).view.emb y) = V m c main_arg1 y
  refine congrArg (V m c main_arg1) (funext fun a => Fin.ext ?_)
  have h := (index_zero t).2.2.1 a
  show win0_2.index t a * S1x1.size a + 1 * (y a).val = (y a).val
  rw [h]; omega

theorem block3 (c : Dev nD) (t : Fin cfg0.N) (y : S1x1.Idx) : iblk m c 3 t y = V m c main_call0_v3 y := by
  show V m c main_call0_v3 (((cfg0.win 3).blk t).view.emb y) = V m c main_call0_v3 y
  refine congrArg (V m c main_call0_v3) (funext fun a => Fin.ext ?_)
  have h := (index_zero t).2.2.2.1 a
  show win0_3.index t a * S1x1.size a + 1 * (y a).val = (y a).val
  rw [h]; omega

theorem block4 (c : Dev nD) (t : Fin cfg0.N) (y : S1x1.Idx) : iblk m c 4 t y = V m c main_arg3 y := by
  show V m c main_arg3 (((cfg0.win 4).blk t).view.emb y) = V m c main_arg3 y
  refine congrArg (V m c main_arg3) (funext fun a => Fin.ext ?_)
  have h := (index_zero t).2.2.2.2.1 a
  show win0_4.index t a * S1x1.size a + 1 * (y a).val = (y a).val
  rw [h]; omega

theorem block5 (c : Dev nD) (t : Fin cfg0.N) (y : S1x1.Idx) : iblk m c 5 t y = V m c main_call0_v4 y := by
  show V m c main_call0_v4 (((cfg0.win 5).blk t).view.emb y) = V m c main_call0_v4 y
  refine congrArg (V m c main_call0_v4) (funext fun a => Fin.ext ?_)
  have h := (index_zero t).2.2.2.2.2.1 a
  show win0_5.index t a * S1x1.size a + 1 * (y a).val = (y a).val
  rw [h]; omega

theorem block6 (c : Dev nD) (t : Fin cfg0.N) (y : S1x1.Idx) : iblk m c 6 t y = V m c main_arg5 y := by
  show V m c main_arg5 (((cfg0.win 6).blk t).view.emb y) = V m c main_arg5 y
  refine congrArg (V m c main_arg5) (funext fun a => Fin.ext ?_)
  have h := (index_zero t).2.2.2.2.2.2.1 a
  show win0_6.index t a * S1x1.size a + 1 * (y a).val = (y a).val
  rw [h]; omega

theorem block7 (c : Dev nD) (t : Fin cfg0.N) (y : S1x1.Idx) : iblk m c 7 t y = V m c main_call0_v5 y := by
  show V m c main_call0_v5 (((cfg0.win 7).blk t).view.emb y) = V m c main_call0_v5 y
  refine congrArg (V m c main_call0_v5) (funext fun a => Fin.ext ?_)
  have h := (index_zero t).2.2.2.2.2.2.2.1 a
  show win0_7.index t a * S1x1.size a + 1 * (y a).val = (y a).val
  rw [h]; omega

theorem block8 (c : Dev nD) (t : Fin cfg0.N) (y : S1x256.Idx) : iblk m c 8 t y = V m c main_call0_v6 y := by
  show V m c main_call0_v6 (((cfg0.win 8).blk t).view.emb y) = V m c main_call0_v6 y
  refine congrArg (V m c main_call0_v6) (funext fun a => Fin.ext ?_)
  have h := (index_zero t).2.2.2.2.2.2.2.2.1 a
  show win0_8.index t a * S1x256.size a + 1 * (y a).val = (y a).val
  rw [h]; omega

theorem block9 (c : Dev nD) (t : Fin cfg0.N) (y : S1x256.Idx) : iblk m c 9 t y = V m c main_call0_v7 y := by
  show V m c main_call0_v7 (((cfg0.win 9).blk t).view.emb y) = V m c main_call0_v7 y
  refine congrArg (V m c main_call0_v7) (funext fun a => Fin.ext ?_)
  have h := (index_zero t).2.2.2.2.2.2.2.2.2.1 a
  show win0_9.index t a * S1x256.size a + 1 * (y a).val = (y a).val
  rw [h]; omega

theorem block10 (c : Dev nD) (t : Fin cfg0.N) (y : S1x256.Idx) : iblk m c 10 t y = V m c main_arg10 y := by
  show V m c main_arg10 (((cfg0.win 10).blk t).view.emb y) = V m c main_arg10 y
  refine congrArg (V m c main_arg10) (funext fun a => Fin.ext ?_)
  have h := (index_zero t).2.2.2.2.2.2.2.2.2.2.1 a
  show win0_10.index t a * S1x256.size a + 1 * (y a).val = (y a).val
  rw [h]; omega

theorem block11 (c : Dev nD) (t : Fin cfg0.N) (y : S1x1.Idx) : iblk m c 11 t y = V m c main_call0_v8 y := by
  show V m c main_call0_v8 (((cfg0.win 11).blk t).view.emb y) = V m c main_call0_v8 y
  refine congrArg (V m c main_call0_v8) (funext fun a => Fin.ext ?_)
  have h := (index_zero t).2.2.2.2.2.2.2.2.2.2.2.1 a
  show win0_11.index t a * S1x1.size a + 1 * (y a).val = (y a).val
  rw [h]; omega

/-! ## The arrays the host prepares before the call -/

/-- The bias row is `bias (0, 0, ·)`: a slice, then two reshapes through `[2048]`. -/
theorem bias_row (c : Dev nD) (t : Fin 2048) :
    V m c main_call0_v2 (ix2 0 t) = m ((c.tc : Thread nD τ).loc main_arg7) (ix3 0 0 t) := by
  have e : (V m c main_call0_v2 : S1x2048.Idx → EReal)
      = shapeCast S1x2048 (shapeCast S2048 (extractStridedSlice S1x1x2048 ![0, 0, 0]
          (m ((c.tc : Thread nD τ).loc main_arg7)) slices_S1x2048x2048_S1x1x2048_0_0_0) shapeCasts_S1x1x2048_S2048)
          shapeCasts_S2048_S1x2048 := by
    show StableHlo.after hostOps0 (fun b => m (c, b)) (Proc.devRef .tc main_call0_v2) = _
    after_results; rfl
  rw [e, shapeCast_a_1a_apply]
  rw [shapeCast_apply _ shapeCasts_S1x1x2048_S2048 (ix1 t) (ix3 (0 : Fin 1) (0 : Fin 1) t) (by
    rw [Shape.rowMajor_val_three, Shape.rowMajor_val_one]
    show (0 * 1 + 0) * 2048 + t.val = t.val
    omega)]
  exact extractStridedSlice_apply _ _ _ _ (ix3 (0 : Fin 1) (0 : Fin 2048) t) fun a => by
    match a with
    | ⟨0, _⟩ => rfl
    | ⟨1, _⟩ => rfl
    | ⟨2, _⟩ => exact (Nat.zero_add _).symm

/-- A `[1]` argument reshaped to `[1, 1]` keeps its entry. -/
theorem bq_cell (c : Dev nD) : V m c main_call0_v3 (ix2 0 0) = m ((c.tc : Thread nD τ).loc main_arg2) (ix1 0) := by
  have e : (V m c main_call0_v3 : S1x1.Idx → EReal)
      = shapeCast S1x1 (m ((c.tc : Thread nD τ).loc main_arg2)) shapeCasts_S1_S1x1 := by
    show StableHlo.after hostOps0 (fun b => m (c, b)) (Proc.devRef .tc main_call0_v3) = _
    after_results; rfl
  rw [e, shapeCast_a_1a_apply]

theorem bk_cell (c : Dev nD) : V m c main_call0_v4 (ix2 0 0) = m ((c.tc : Thread nD τ).loc main_arg4) (ix1 0) := by
  have e : (V m c main_call0_v4 : S1x1.Idx → EReal)
      = shapeCast S1x1 (m ((c.tc : Thread nD τ).loc main_arg4)) shapeCasts_S1_S1x1 := by
    show StableHlo.after hostOps0 (fun b => m (c, b)) (Proc.devRef .tc main_call0_v4) = _
    after_results; rfl
  rw [e, shapeCast_a_1a_apply]

theorem bv_cell (c : Dev nD) : V m c main_call0_v5 (ix2 0 0) = m ((c.tc : Thread nD τ).loc main_arg6) (ix1 0) := by
  have e : (V m c main_call0_v5 : S1x1.Idx → EReal)
      = shapeCast S1x1 (m ((c.tc : Thread nD τ).loc main_arg6)) shapeCasts_S1_S1x1 := by
    show StableHlo.after hostOps0 (fun b => m (c, b)) (Proc.devRef .tc main_call0_v5) = _
    after_results; rfl
  rw [e, shapeCast_a_1a_apply]

theorem b2_cell (c : Dev nD) : V m c main_call0_v8 (ix2 0 0) = m ((c.tc : Thread nD τ).loc main_arg11) (ix1 0) := by
  have e : (V m c main_call0_v8 : S1x1.Idx → EReal)
      = shapeCast S1x1 (m ((c.tc : Thread nD τ).loc main_arg11)) shapeCasts_S1_S1x1 := by
    show StableHlo.after hostOps0 (fun b => m (c, b)) (Proc.devRef .tc main_call0_v8) = _
    after_results; rfl
  rw [e, shapeCast_a_1a_apply]

/-- The first layer's weights, a column `[256, 1]` reshaped to a row: entry `(0, j)` is entry `(j, 0)`. -/
theorem w1_row (c : Dev nD) (j : Fin 256) :
    V m c main_call0_v6 (ix2 0 j) = m ((c.tc : Thread nD τ).loc main_arg8) (ix2 j 0) := by
  have e : (V m c main_call0_v6 : S1x256.Idx → EReal)
      = shapeCast S1x256 (m ((c.tc : Thread nD τ).loc main_arg8)) shapeCasts_S256x1_S1x256 := by
    show StableHlo.after hostOps0 (fun b => m (c, b)) (Proc.devRef .tc main_call0_v6) = _
    after_results; rfl
  rw [e]
  exact shapeCast_apply _ shapeCasts_S256x1_S1x256 (ix2 (0 : Fin 1) j) (ix2 j (0 : Fin 1)) (by
    rw [Shape.rowMajor_val_two, Shape.rowMajor_val_two]
    show j.val * 1 + 0 = 0 * 256 + j.val
    omega)

/-- The first layer's offsets, `[256]` reshaped to a row. -/
theorem b1_row (c : Dev nD) (j : Fin 256) :
    V m c main_call0_v7 (ix2 0 j) = m ((c.tc : Thread nD τ).loc main_arg9) (ix1 j) := by
  have e : (V m c main_call0_v7 : S1x256.Idx → EReal)
      = shapeCast S1x256 (m ((c.tc : Thread nD τ).loc main_arg9)) shapeCasts_S256_S1x256 := by
    show StableHlo.after hostOps0 (fun b => m (c, b)) (Proc.devRef .tc main_call0_v7) = _
    after_results; rfl
  rw [e, shapeCast_a_1a_apply]

/-! ## The output array -/

/-- The specification's result over the launch contents of the arguments. -/
def resultOf (c : Dev nD) : (⟨1, ![32]⟩ : Shape).Idx → EReal :=
  result (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11))

/-- The call's `[1, 32]` output: entry `(0, b)` is the result for sequence `b`. -/
def outArr (c : Dev nD) : S1x32.Idx → EReal := fun i => resultOf m c (ix1 (i 1))

/-- What the one grid point writes back is the whole of `outArr`. -/
theorem flushed_eq (c : Dev nD) (t : Fin cfg0.N) :
    (dats m 0 c).flushed 12 t = ((cfg0.win 12).blk t).view.read (Elt Ideal) (outArr m c) := by
  show (cfg0.win 12).cut (grid0.coords t) ((dats m 0 c).after 12 t) = _
  rw [after0_12]
  unfold out0_12
  rw [View.canon_unit_zero hz]
  simp only [View.ld_unit_zero (S := S2048x32) hz, View.ld_unit_zero (S := S1x2048) hz, View.ld_unit_zero (S := S1x1) hz,
    View.ld_unit_zero (S := S1x256) hz]
  funext j
  obtain ⟨p, b, rfl⟩ : ∃ (p : Fin 1) (b : Fin 32), j = ix2 p b := ⟨j 0, j 1, eq_ix2 j⟩
  obtain rfl : p = 0 := fin_one p
  have hb : (((cfg0.win 12).blk t).view.emb (ix2 (0 : Fin 1) b)) 1 = b := Fin.ext (by
    have h := (index_zero t).2.2.2.2.2.2.2.2.2.2.2.2 1
    show win0_12.index t 1 * 32 + 1 * b.val = b.val
    rw [h]; omega)
  show k0_pay1 (F := Ideal) _ _ _ _ _ _ _ (ix2 0 b) = resultOf m c (ix1 ((((cfg0.win 12).blk t).view.emb (ix2 (0 : Fin 1) b)) 1))
  rw [hb]
  refine (KernelBody.stored_at (iblk m c 0 t) (iblk m c 1 t) (iblk m c 2 t) (iblk m c 3 t) (iblk m c 4 t) (iblk m c 5 t)
    (iblk m c 6 t) (iblk m c 7 t) (iblk m c 8 t) (iblk m c 9 t) (iblk m c 10 t) (iblk m c 11 t) b).trans ?_
  simp only [block0 m c t, block1 m c t, block2 m c t, block3 m c t, block4 m c t, block5 m c t, block6 m c t, block7 m c t,
    block8 m c t, block9 m c t, block10 m c t, block11 m c t, bias_row m c, bq_cell m c, bk_cell m c, bv_cell m c, b2_cell m c,
    w1_row m c, b1_row m c, V_main_arg0 m c, V_main_arg1 m c, V_main_arg3 m c, V_main_arg5 m c, V_main_arg10 m c]
  rfl

/-- Every index of the output array is in the one block. -/
theorem covered (c : Dev nD) (i : S1x32.Idx) :
    ∃ t : Fin cfg0.N, (cfg0.win 12).flush t = true ∧ i ∈ ((cfg0.win 12).blk t).view.set := by
  refine ⟨t0_0, flush0_12 t0_0, ?_⟩
  show i ∈ ((View.whole main_call0_v9).slice (win0_12.rect t0_0)).set
  rw [View.set_slice_whole, Rect.mem_set_unit]
  intro a
  have h := (index_zero t0_0).2.2.2.2.2.2.2.2.2.2.2.2 a
  have hi : (i a).val < S1x32.size a := (i a).isLt
  show win0_12.index t0_0 a * S1x32.size a ≤ (i a).val ∧ (i a).val < win0_12.index t0_0 a * S1x32.size a + S1x32.size a
  rw [h]; omega

/-- The output array after the run. -/
theorem final (c : Dev nD) : (dats m 0 c).arrAt 12 cfg0.N = outArr m c :=
  (dats m 0 c).arrAt_eq_of_cover 12 (outArr m c) (fun t _ => flushed_eq m c t) (covered c)

/-- The result of @main: the reshape of the output array. -/
theorem tail_eq (c : Dev nD) :
    Pipeline.afterTail₀ cfgs (dats m) 0 (V0 m) [hostOps1] c main_v0 = resultOf m c := by
  unfold Pipeline.afterTail₀
  show StableHlo.after hostOps1 _ (Proc.devRef .tc main_v0) = _
  after_results
  rw [(Pipeline.withArrays_arr spec0 launch0.win.arr_inj c _ _ 12).trans (final m c)]
  funext i
  rw [eq_ix1 i]
  exact shapeCast_1a_a_apply (outArr m c) shapeCasts_S1x32_S32 (i 0)

/-! ## The run -/

/-- Every weakly fair execution of the kernel's program ends with the result at the specification's function of the
    arguments, the arguments unchanged. -/
theorem run : θ_run defs (onTc (τ := τ) (main (F := Ideal))) ⟨m, fun _ => 0, ρ⟩ fun r => ∀ c : Dev nD,
      r.2.mem ((c.tc : Thread nD τ).loc main_v0) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    ⟨((h c).2 main_v0 (Pipeline.mem_restRefs_of main_v0 (by decide) (by decide))).trans (tail_eq m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).2 main_arg2 (Pipeline.mem_restRefs_of main_arg2 (by decide) (by decide))).trans (W_main_arg2 m (dats m) c),
      ((h c).1 4).trans (((dats m 0 c).arrAt_in 4 rfl _).trans ((A_eq m c 4).trans (V_main_arg3 m c))),
      ((h c).2 main_arg4 (Pipeline.mem_restRefs_of main_arg4 (by decide) (by decide))).trans (W_main_arg4 m (dats m) c),
      ((h c).1 6).trans (((dats m 0 c).arrAt_in 6 rfl _).trans ((A_eq m c 6).trans (V_main_arg5 m c))),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).1 10).trans (((dats m 0 c).arrAt_in 10 rfl _).trans ((A_eq m c 10).trans (V_main_arg10 m c))),
      ((h c).2 main_arg11 (Pipeline.mem_restRefs_of main_arg11 (by decide) (by decide))).trans (W_main_arg11 m (dats m) c)⟩)
    (run_main m ρ)

end Cert.KernelValue

end
-- ==== Proof.RefValue.lean ====
/-
  The reference, stage by stage, is the function of Spec.lean: each intermediate array of the reference is read at an
  arbitrary index and found to be the corresponding quantity of the specification at that index's coordinates. The
  contractions over an axis of extent one are single products; the division by `√1` is the identity; the row maximum is
  the maximum over the 2048 keys whatever order it is folded in, and one more maximum with `-∞` changes nothing; the sums
  start from the word of zero.
-/
import proofs.«102933_j32899449487822_2_alg».proof.Proof.Gen.ReferenceIdeal.Read
import proofs.«102933_j32899449487822_2_alg».proof.Proof.Spec
import proofs.«102933_j32899449487822_2_alg».proof.Proof.LibIndexCoords

noncomputable section

namespace Cert.RefValue

open Cert.ReferenceIdeal Cert.ReferenceIdeal.Gen Cert.ReferenceIdeal.Read Cert.RowAttn
open Idealize.ShloMosaic Idealize.ShloMosaic.ValueIdx

variable (x0 : (⟨S2048x32, .f32⟩ : BufTy).Contents (Elt Ideal)) (x1 : (⟨S1x1, .f32⟩ : BufTy).Contents (Elt Ideal))
  (x2 : (⟨S1, .f32⟩ : BufTy).Contents (Elt Ideal)) (x3 : (⟨S1x1, .f32⟩ : BufTy).Contents (Elt Ideal))
  (x4 : (⟨S1, .f32⟩ : BufTy).Contents (Elt Ideal)) (x5 : (⟨S1x1, .f32⟩ : BufTy).Contents (Elt Ideal))
  (x6 : (⟨S1, .f32⟩ : BufTy).Contents (Elt Ideal)) (x7 : (⟨S1x2048x2048, .f32⟩ : BufTy).Contents (Elt Ideal))
  (x8 : (⟨S256x1, .f32⟩ : BufTy).Contents (Elt Ideal)) (x9 : (⟨S256, .f32⟩ : BufTy).Contents (Elt Ideal))
  (x10 : (⟨S1x256, .f32⟩ : BufTy).Contents (Elt Ideal)) (x11 : (⟨S1, .f32⟩ : BufTy).Contents (Elt Ideal))

/-! ## Queries, keys and values -/

/-- The query of token `i 1` of sequence `i 0`: the contraction over the one feature is a single product. -/
theorem query_at (i : S32x2048x1.Idx) : val_main_v5 (F := Ideal) x0 x1 x2 i = proj x0 x1 x2 (i 1) (i 0) := by
  rw [val_main_v5_apply, val_main_v4_apply, val_main_v1_apply, Fin.sum_univ_one, val_main_v0_apply,
    val_main_v3_apply, val_main_v2_apply, app_ab x0, app_11 x1, app_1 x2]
  rfl

/-- The key likewise. -/
theorem key_at (i : S32x2048x1.Idx) : val_main_v10 (F := Ideal) x0 x3 x4 i = proj x0 x3 x4 (i 1) (i 0) := by
  rw [val_main_v10_apply, val_main_v9_apply, val_main_v6_apply, Fin.sum_univ_one, val_main_v0_apply,
    val_main_v8_apply, val_main_v7_apply, app_ab x0, app_11 x3, app_1 x4]
  rfl

/-- The value likewise. -/
theorem value_at (i : S32x2048x1.Idx) : val_main_v15 (F := Ideal) x0 x5 x6 i = proj x0 x5 x6 (i 1) (i 0) := by
  rw [val_main_v15_apply, val_main_v14_apply, val_main_v11_apply, Fin.sum_univ_one, val_main_v0_apply,
    val_main_v13_apply, val_main_v12_apply, app_ab x0, app_11 x5, app_1 x6]
  rfl

/-! ## The scores and their softmax -/

/-- The score of query row `i 1` against key `i 2` in sequence `i 0`: the division by `√1` is the identity. -/
theorem score_at (i : S32x2048x2048.Idx) :
    val_main_v21 (F := Ideal) x0 x1 x2 x3 x4 x7 i = score x0 x1 x2 x3 x4 x7 (i 0) (i 1) (i 2) := by
  rw [val_main_v21_apply, val_main_v19_apply, val_main_v16_apply, Fin.sum_univ_one, query_at, key_at,
    val_main_v18_apply, val_main_v17_apply, val_main_cst_apply, val_main_v20_apply, app_1ab x7]
  simp only [Ideal.hostDivf_def, Ideal.hostUnary_sqrt_def, Ideal.ofBits_def, ofBits_one_f32, ideal_sqrt_one, ideal_div_one]
  rfl

/-- The maximum of a row of scores. -/
theorem max_at (i : S32x2048.Idx) :
    val_main_v24 (F := Ideal) x0 x1 x2 x3 x4 x7 i = rowMax (score x0 x1 x2 x3 x4 x7 (i 0) (i 1)) := by
  rw [val_main_v24_apply, val_main_v23_apply, val_main_cst_1_apply]
  unfold val_main_v22
  rw [Host.reduce_eq_fold_single FloatOps.maximumf _ _ reducesTo_S32x2048x2048_S32x2048_d2
    (by decide : S32x2048x2048.Reduces [2] S32x2048) h_S_ i]
  have hrow : (val_main_v21 (F := Ideal) x0 x1 x2 x3 x4 x7
      ∘ (by decide : S32x2048x2048.Reduces [2] S32x2048).lift i) = score x0 x1 x2 x3 x4 x7 (i 0) (i 1) :=
    funext fun t => by rw [Function.comp_apply, score_at]; rfl
  rw [hrow]
  exact max_negInf_rowMax _

/-- The exponential of the shifted score. -/
theorem expo_at (i : S32x2048x2048.Idx) :
    val_main_v28 (F := Ideal) x0 x1 x2 x3 x4 x7 i = expoRow (score x0 x1 x2 x3 x4 x7 (i 0) (i 1)) (i 2) := by
  rw [val_main_v28_apply, val_main_v27_apply, score_at, val_main_v26_apply, val_main_v25_apply, max_at]
  rfl

/-- The row's normaliser: the sum starts from the word of zero. -/
theorem denom_at (i : S32x2048.Idx) :
    val_main_v29 (F := Ideal) x0 x1 x2 x3 x4 x7 i = denomRow (score x0 x1 x2 x3 x4 x7 (i 0) (i 1)) := by
  rw [val_main_v29_apply, val_main_cst_2_apply]
  simp only [expo_at, Ideal.ofBits_def, Ideal.ofBits_zero_f32, zero_add]
  rfl

/-- The attention weight. -/
theorem attn_at (i : S32x2048x2048.Idx) :
    val_main_v32 (F := Ideal) x0 x1 x2 x3 x4 x7 i = attnRow (score x0 x1 x2 x3 x4 x7 (i 0) (i 1)) (i 2) := by
  rw [val_main_v32_apply, expo_at, val_main_v31_apply, val_main_v30_apply, denom_at]
  rfl

/-! ## The context and the perceptron -/

/-- The context of query row `i 1` of sequence `i 0`. -/
theorem ctx_at (i : S32x2048x1.Idx) :
    val_main_v33 (F := Ideal) x0 x1 x2 x3 x4 x5 x6 x7 i = ctx x0 x1 x2 x3 x4 x5 x6 x7 (i 0) (i 1) := by
  rw [val_main_v33_apply]
  simp only [attn_at, value_at]
  rfl

/-- Hidden unit `i 2`, for query row `i 0` of sequence `i 1`. -/
theorem hid_at (i : S2048x32x256.Idx) :
    val_main_v39 (F := Ideal) x0 x1 x2 x3 x4 x5 x6 x7 x8 x9 i
      = hidden (ctx x0 x1 x2 x3 x4 x5 x6 x7 (i 1) (i 0)) (fun j => x8 (ix2 j 0)) (fun j => x9 (ix1 j)) (i 2) := by
  rw [val_main_v39_apply, val_main_v38_apply, val_main_v35_apply, Fin.sum_univ_one, val_main_v34_apply, ctx_at,
    val_main_v37_apply, val_main_v36_apply, val_main_call0_v0_apply, val_main_call0_cst_apply, app_a1 x8, app_a x9]
  rfl

/-- The perceptron's output for query row `i 0` of sequence `i 1`. -/
theorem out_at (i : S2048x32x1.Idx) :
    val_main_v43 (F := Ideal) x0 x1 x2 x3 x4 x5 x6 x7 x8 x9 x10 x11 i
      = mlp (ctx x0 x1 x2 x3 x4 x5 x6 x7 (i 1) (i 0)) (fun j => x8 (ix2 j 0)) (fun j => x9 (ix1 j)) (fun j => x10 (ix2 0 j))
          (x11 (ix1 0)) := by
  rw [val_main_v43_apply, val_main_v40_apply, val_main_v42_apply, val_main_v41_apply, app_1 x11]
  simp only [hid_at]
  refine congrArg (· + x11 (ix1 0)) (Finset.sum_congr rfl fun k _ => ?_)
  rw [app_1b x10]
  rfl

/-- The reshape at the end reads entry `b` of the one row kept by the slice. -/
theorem result_eq :
    val_main_v45 (F := Ideal) x0 x1 x2 x3 x4 x5 x6 x7 x8 x9 x10 x11 = result x0 x1 x2 x3 x4 x5 x6 x7 x8 x9 x10 x11 := by
  funext i
  rw [val_main_v45_apply, val_main_v44_apply, out_at]
  have hb : idx_main_v44 (idx_main_v45 i) 1 = i 0 := Fin.ext (by
    have h : (i 0).val < 32 := (i 0).isLt
    show (i 0).val / 1 % 32 = (i 0).val
    omega)
  rw [hb]
  rfl

end Cert.RefValue

end
-- ==== Proof.lean ====
/-
  The five claims of this certificate.

  The kernel attends from token `0` of each of 32 sequences of 2048 one-feature tokens — affine queries, keys and values,
  scores plus a bias row, a softmax, the weighted value — and puts the context through a two-layer perceptron; the
  reference computes the whole `32 × 2048 × 2048` attention and keeps row `0`. At the exact values both results are
  one function of the arguments (Proof/Spec.lean): the kernel's run is read in Proof/KernelBody.lean (the body over its
  loaded blocks) and Proof/KernelValue.lean (the blocks are the arrays; the reshape after the call), the reference's in
  Proof/RefValue.lean over its generated run. The two differ only where nothing changes a value: the kernel multiplies
  the scores by `1.0` where the reference divides by `√1`, contractions over one feature are single products, and the
  reference takes one more maximum with `-∞`. No step uses that the inputs are finite. The idealization rewrote nothing,
  so the kernel's word-level program and its idealization are the same text read at two instances.
-/
import proofs.«102933_j32899449487822_2_alg».proof.Defs
import proofs.«102933_j32899449487822_2_alg».proof.Proof.Gen.Kernel
import proofs.«102933_j32899449487822_2_alg».proof.Proof.Gen.Kernel.Frame
import proofs.«102933_j32899449487822_2_alg».proof.Proof.Gen.KernelIdeal
import proofs.«102933_j32899449487822_2_alg».proof.Proof.Gen.KernelIdeal.Frame
import proofs.«102933_j32899449487822_2_alg».proof.Proof.Gen.ReferenceIdeal
import proofs.«102933_j32899449487822_2_alg».proof.Proof.Gen.ReferenceIdeal.Run
import proofs.«102933_j32899449487822_2_alg».proof.Proof.Gen.ReferenceIdeal.Read
import proofs.«102933_j32899449487822_2_alg».proof.Proof.Gen.Pre_finite_inputs
import proofs.«102933_j32899449487822_2_alg».proof.Proof.KernelValue
import proofs.«102933_j32899449487822_2_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is a straight line of host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Nothing was rewritten. -/
theorem preserves : Cert.preserves_Kernel_KernelIdeal := trivial

/-- Both programs end with the specification's result of the arguments, which agree. -/
theorem algebraic : Cert.algebraic_KernelIdeal_ReferenceIdeal := by
  intro m ρ m' ρ' _ hagree
  refine ⟨fun c => Cert.KernelValue.resultOf m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v45_eq, Cert.RefValue.result_eq]
  unfold Cert.KernelValue.resultOf
  rw [(hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
